-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : IVec S4096 32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S1x4096 : Shape := ⟨2, ![1, 4096]⟩
abbrev S512x4096 : Shape := ⟨2, ![512, 4096]⟩
abbrev S128x4096 : Shape := ⟨2, ![128, 4096]⟩
abbrev S128x1 : Shape := ⟨2, ![128, 1]⟩
abbrev S1x128 : Shape := ⟨2, ![1, 128]⟩
abbrev S512x128 : Shape := ⟨2, ![512, 128]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .i32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S4096x1, .i32⟩
  | .hbm, ⟨7, _⟩ => ⟨S4096x1, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S128x4096, .i32⟩
  | .local _ .vmem, ⟨3, _⟩ => ⟨S128x4096, .i32⟩
  | .local _ .vmem, ⟨4, _⟩ => ⟨S128x1, .i32⟩
  | .local _ .vmem, ⟨5, _⟩ => ⟨S128x1, .i32⟩
  | .local _ .vmem, ⟨6, _⟩ => ⟨S128x1, .f32⟩
  | .local _ .vmem, ⟨7, _⟩ => ⟨S128x1, .f32⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S4096_S4096x1 : S4096.ShapeCasts S4096x1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S8192x4096_S4x2048x4096 : S8192x4096.ShapeCasts S4x2048x4096
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .i32 = 32 ∨ (Rect.block (s := S4096x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .i32 = 32 ∨ (Rect.block (s := S4096x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x4096.size a
  hwx0_4 : ∀ i : grid0.Coords, EltTy.bits .f32 = 32 ∨ (Rect.block (s := S1x4096) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x4096.size a
  hwx0_5 : ∀ i : grid0.Coords, EltTy.bits .f32 = 32 ∨ (Rect.block (s := S8192x4096) S512x128.size (cc0_transform_5 i) (hinb0_5 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .i32⟩
  | .hbm, ⟨3, _⟩ => ⟨S4096, .f32⟩
  | .hbm, ⟨4, _⟩ => ⟨S4096, .f32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  A linear layer whose weight is stored as integer codes.

  Output channel o has a zero point z(o), a scale s(o) and a bias b(o); its weight against input feature k is the code
  q(o, k) less the zero point — the 32-bit subtraction, read as a signed integer — times the scale.  The layer sends a row
  x of 4096 features to the 4096 numbers  Σ_k x(k) · ((q(o, k) − z(o)) · s(o)) + b(o).  Stated twice: over the batch
  [4, 2048] of rows as it is given, and over the same rows numbered 0 … 8191 with the per-channel vectors stood up as
  columns and the bias as a row — the form a blocked product works on.  Every value is an extended real; nothing is rounded.
-/
import Idealize.ShloMosaic.PureOps.Ideal
import Idealize.ShloMosaic.Lib.ValueIdx

noncomputable section

namespace Cert.Dequant

open Idealize.ShloMosaic Idealize.ShloMosaic.ValueIdx

/-- The weight a code stands for: code minus zero point as a signed integer, times the scale. -/
def weight (code zero : BitVec 32) (scale : EReal) : EReal :=
  (FloatOps.sitofp (F := Ideal) .f32 (IntOp.subi code zero) : EReal) * scale

/-- The layer over the batch as given: entry (b, s, o) is row (b, s) against channel o's weights, plus channel o's bias. -/
def lin (x : (⟨3, ![4, 2048, 4096]⟩ : Shape).Idx → EReal) (q : (⟨2, ![4096, 4096]⟩ : Shape).Idx → BitVec 32)
    (z : (⟨1, ![4096]⟩ : Shape).Idx → BitVec 32) (s b : (⟨1, ![4096]⟩ : Shape).Idx → EReal) :
    (⟨3, ![4, 2048, 4096]⟩ : Shape).Idx → EReal :=
  fun j => (∑ k : Fin 4096, x (ix3 (j 0) (j 1) k) * weight (q (ix2 (j 2) k)) (z (ix1 (j 2))) (s (ix1 (j 2)))) + b (ix1 (j 2))

/-- The layer over the rows numbered flat: entry (r, o) is row r against channel o's weights, plus channel o's bias; zero
    points and scales are columns, the bias a row. -/
def flat (x : (⟨2, ![8192, 4096]⟩ : Shape).Idx → EReal) (q : (⟨2, ![4096, 4096]⟩ : Shape).Idx → BitVec 32)
    (z : (⟨2, ![4096, 1]⟩ : Shape).Idx → BitVec 32) (s : (⟨2, ![4096, 1]⟩ : Shape).Idx → EReal)
    (b : (⟨2, ![1, 4096]⟩ : Shape).Idx → EReal) : (⟨2, ![8192, 4096]⟩ : Shape).Idx → EReal :=
  fun j => (∑ k : Fin 4096, x (ix2 (j 0) k) * weight (q (ix2 (j 1) k)) (z (ix2 (j 1) (0 : Fin 1))) (s (ix2 (j 1) (0 : Fin 1))))
    + b (ix2 (0 : Fin 1) (j 1))

end Cert.Dequant

end
-- ==== Proof.RefIsSpec.lean ====
/-
  The reference computes the layer over the batch as given.

  Its operations, read one entry at a time: the zero points and the scales are stood up as columns and repeated along the
  feature axis, so entry (o, k) of the repeated array is channel o's value; the codes less the zero points, as signed
  integers, times the scales are the weights; the contraction of the input's feature axis against the weights' feature axis
  is, at (b, s, o), the sum over the features k of x(b, s, k) · w(o, k); and the bias, repeated over the batch, adds b(o).
-/
import proofs.«115320_j47656957116956_1_alg».proof.Proof.Gen.ReferenceIdeal.Read
import proofs.«115320_j47656957116956_1_alg».proof.Proof.Spec

noncomputable section

namespace Cert.ReferenceIdeal.RefValue

open Cert.ReferenceIdeal Cert.ReferenceIdeal.Read Idealize.ShloMosaic Idealize.ShloMosaic.ValueIdx

/-- The left operand of the contraction at (b, s, o), feature k: the input's entry (b, s, k). -/
theorem lidx_eq (p : Fin 4) (n : Fin 2048) (o k : Fin 4096) : lidx_main_v7 (ix3 p n o) k = ix3 p n k :=
  funext fun a => match a with | ⟨0, _⟩ => rfl | ⟨1, _⟩ => rfl | ⟨2, _⟩ => rfl

/-- The right operand at (b, s, o), feature k: the weight's entry (o, k). -/
theorem ridx_eq (p : Fin 4) (n : Fin 2048) (o k : Fin 4096) : ridx_main_v7 (ix3 p n o) k = ix2 o k :=
  funext fun a => match a with | ⟨0, _⟩ => rfl | ⟨1, _⟩ => rfl

/-- A zero point repeated along the features: entry (o, k) reads channel o. -/
theorem zidx_eq (o k : Fin 4096) : idx_main_v0 (idx_main_v1 (ix2 o k)) = ix1 o :=
  funext fun a => match a with | ⟨0, _⟩ => rfl

/-- A scale repeated along the features: entry (o, k) reads channel o. -/
theorem sidx_eq (o k : Fin 4096) : idx_main_v4 (idx_main_v5 (ix2 o k)) = ix1 o :=
  funext fun a => match a with | ⟨0, _⟩ => rfl

/-- The bias repeated over the batch: entry (b, s, o) reads channel o. -/
theorem bidx_eq (p : Fin 4) (n : Fin 2048) (o : Fin 4096) : idx_main_v8 (idx_main_v9 (ix3 p n o)) = ix1 o :=
  funext fun a => match a with | ⟨0, _⟩ => rfl

/-- The reference's result is the layer over the batch, entry by entry. -/
theorem result_eq (x0 : (⟨S4x2048x4096, .f32⟩ : BufTy).Contents (Elt Ideal)) (x1 : (⟨S4096x4096, .i32⟩ : BufTy).Contents (Elt Ideal))
    (x2 : (⟨S4096, .i32⟩ : BufTy).Contents (Elt Ideal)) (x3 x4 : (⟨S4096, .f32⟩ : BufTy).Contents (Elt Ideal)) :
    val_main_v10 (F := Ideal) x0 x1 x2 x3 x4 = Cert.Dequant.lin x0 x1 x2 x3 x4 := by
  funext j
  obtain ⟨p, n, o, rfl⟩ : ∃ (p : Fin 4) (n : Fin 2048) (o : Fin 4096), j = ix3 p n o := ⟨j 0, j 1, j 2, eq_ix3 j⟩
  rw [val_main_v10_apply, val_main_v7_apply, val_main_v9_apply, val_main_v8_apply, bidx_eq]
  simp only [val_main_v6_apply, val_main_v3_apply, val_main_v2_apply, val_main_v1_apply, val_main_v0_apply,
    val_main_v5_apply, val_main_v4_apply, lidx_eq, ridx_eq, zidx_eq, sidx_eq]
  rfl

end Cert.ReferenceIdeal.RefValue

end
-- ==== Proof.Payload.lean ====
/-
  What the kernel body stores, one entry at a time.

  At a grid point the body holds a block of 512 input rows, the codes of 128 output channels, those channels' zero points
  and scales as columns, and their biases as a row.  It repeats each column along the 4096 features, forms the weights —
  code less zero point as a signed integer, times scale —, contracts the rows' feature axis against the weights' feature
  axis into a zero accumulator, and adds the bias row to every row of the product.  A change of float format is the
  identity on the extended reals, so entry (p, q) of what it stores is  Σ_k x(p, k) · w(q, k) + b(q).
-/
import proofs.«115320_j47656957116956_1_alg».proof.Proof.Gen.KernelIdeal.Skeleton
import proofs.«115320_j47656957116956_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- A column [a, 1] repeated along a second axis of extent b: entry (p, q) is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The product's left operand at entry i, contraction position κ, sits in row i's row: its first coordinate is i's. -/
theorem lhs_row (i : S512x128.Idx) (κ : dot_S512x4096_S128x4096_S512x128_1_1_0_0_n_n.contr.Idx) : (dot_S512x4096_S128x4096_S512x128_1_1_0_0_n_n.lhsIdx i κ 0).val = (i 0).val := by
  unfold DotDims.lhsIdx
  rw [dif_neg (show ¬(0 : Fin S512x4096.rank) ∈ dot_S512x4096_S128x4096_S512x128_1_1_0_0_n_n.lhsBatch by decide), dif_pos (show (0 : Fin S512x4096.rank) ∈ dot_S512x4096_S128x4096_S512x128_1_1_0_0_n_n.lhsNonContracting by decide)]
  rfl
/-- Its second coordinate is the contraction position. -/
theorem lhs_feat (i : S512x128.Idx) (κ : dot_S512x4096_S128x4096_S512x128_1_1_0_0_n_n.contr.Idx) : (dot_S512x4096_S128x4096_S512x128_1_1_0_0_n_n.lhsIdx i κ 1).val = (κ ⟨0, by decide⟩).val :=
  dot_S512x4096_S128x4096_S512x128_1_1_0_0_n_n.lhsIdx_val_of_single rfl i κ
/-- The right operand at entry i sits in the row named by i's second coordinate. -/
theorem rhs_row (i : S512x128.Idx) (κ : dot_S512x4096_S128x4096_S512x128_1_1_0_0_n_n.contr.Idx) : (dot_S512x4096_S128x4096_S512x128_1_1_0_0_n_n.rhsIdx i κ 0).val = (i 1).val := by
  unfold DotDims.rhsIdx
  rw [dif_neg (show ¬(0 : Fin S128x4096.rank) ∈ dot_S512x4096_S128x4096_S512x128_1_1_0_0_n_n.rhsBatch by decide), dif_pos (show (0 : Fin S128x4096.rank) ∈ dot_S512x4096_S128x4096_S512x128_1_1_0_0_n_n.rhsNonContracting by decide)]
  rfl
/-- Its second coordinate is the contraction position. -/
theorem rhs_feat (i : S512x128.Idx) (κ : dot_S512x4096_S128x4096_S512x128_1_1_0_0_n_n.contr.Idx) : (dot_S512x4096_S128x4096_S512x128_1_1_0_0_n_n.rhsIdx i κ 1).val = (κ ⟨0, by decide⟩).val :=
  dot_S512x4096_S128x4096_S512x128_1_1_0_0_n_n.rhsIdx_val_of_single rfl i κ

/-- The block product: 512 rows against 128 rows, both contracted along their 4096 features, into zeros.  Entry (p, q)
    is the sum over the features of the products of the two rows' entries. -/
theorem matmul_rows_apply (A : FVec Ideal S512x4096 .bf16) (B : FVec Ideal S128x4096 .bf16) (p : Fin 512) (q : Fin 128) :
    matmul dot_S512x4096_S128x4096_S512x128_1_1_0_0_n_n none A B (constant (F := Ideal) S512x128 .f32 0x00000000#32) (ix2 p q)
      = ∑ k : Fin 4096, A (ix2 p k) * B (ix2 q k) := by
  show FloatOps.matmul dot_S512x4096_S128x4096_S512x128_1_1_0_0_n_n none A B _ (ix2 p q) = _
  rw [Ideal.matmul_constant_zero_apply, ← Equiv.sum_comp (contrEquiv1 dot_S512x4096_S128x4096_S512x128_1_1_0_0_n_n 4096 rfl rfl).symm]
  refine Finset.sum_congr rfl fun k _ => ?_
  have hk := contrEquiv1_symm_val dot_S512x4096_S128x4096_S512x128_1_1_0_0_n_n 4096 rfl rfl k
  have el : dot_S512x4096_S128x4096_S512x128_1_1_0_0_n_n.lhsIdx (ix2 p q) ((contrEquiv1 dot_S512x4096_S128x4096_S512x128_1_1_0_0_n_n 4096 rfl rfl).symm k) = ix2 p k := funext fun a => Fin.ext (by
    match a with
    | ⟨0, _⟩ => exact lhs_row _ _
    | ⟨1, _⟩ => exact (lhs_feat _ _).trans hk)
  have er : dot_S512x4096_S128x4096_S512x128_1_1_0_0_n_n.rhsIdx (ix2 p q) ((contrEquiv1 dot_S512x4096_S128x4096_S512x128_1_1_0_0_n_n 4096 rfl rfl).symm k) = ix2 q k := funext fun a => Fin.ext (by
    match a with
    | ⟨0, _⟩ => exact rhs_row _ _
    | ⟨1, _⟩ => exact (rhs_feat _ _).trans hk)
  rw [el, er]

/-- Entry (p, q) of what the body stores, from the blocks it loaded. -/
theorem pay_apply (x0 : Vec Ideal S512x4096 .f32) (x1 : Vec Ideal S128x4096 .i32) (x2 : Vec Ideal S128x1 .i32)
    (x3 : Vec Ideal S128x1 .f32) (x4 : Vec Ideal S1x128 .f32) (p : Fin 512) (q : Fin 128) :
    k0_pay1 (F := Ideal) x0 x1 x2 x3 x4 (ix2 p q)
      = (∑ k : Fin 4096, x0 (ix2 p k) * Cert.Dequant.weight (x1 (ix2 q k)) (x2 (ix2 q (0 : Fin 1))) (x3 (ix2 q (0 : Fin 1))))
        + x4 (ix2 (0 : Fin 1) q) := by
  unfold k0_pay1
  refine (addf_apply _ _ _).trans (congrArg₂ (· + ·) ?_ ?_)
  · refine (matmul_rows_apply _ _ p q).trans (Finset.sum_congr rfl fun k _ => congrArg₂ (· * ·) ?_ ?_)
    · show shapeCast S512x4096 x0 shapeCasts_S512x4096_S512x4096 (ix2 p k) = x0 (ix2 p k)
      rw [shapeCast_self]
    · show (FloatOps.sitofp (F := Ideal) .f32 (IntOp.subi (x1 (ix2 q k))
            (broadcastTo S128x4096 (shapeCast S128x1 x2 shapeCasts_S128x1_S128x1) broadcasts_S128x1_S128x4096 (ix2 q k))) : EReal)
          * broadcastTo S128x4096 (shapeCast S128x1 x3 shapeCasts_S128x1_S128x1) broadcasts_S128x1_S128x4096 (ix2 q k)
        = Cert.Dequant.weight (x1 (ix2 q k)) (x2 (ix2 q (0 : Fin 1))) (x3 (ix2 q (0 : Fin 1)))
      rw [broadcastTo_a1_ab_apply, broadcastTo_a1_ab_apply, shapeCast_self, shapeCast_self]
      rfl
  · rw [broadcastTo_1b_ab_apply, shapeCast_self]

end Cert.KernelIdeal.BlockValue

end
-- ==== Proof.Blocks.lean ====
/-
  From blocks to the array.

  The grid has 16 × 32 points; point t = i·32 + j works on rows 512·i … 512·i + 511 of the flat input and on output
  channels 128·j … 128·j + 127, and writes back the 512 × 128 block (i, j) of the flat result.  Entry (p, q) of that block is
  entry (512·i + p, 128·j + q) of the array; the input block's entry (p, k) is the input's (512·i + p, k), the codes'
  entry (q, k) is the codes' (128·j + q, k), and likewise for the columns and the bias row.  So what point t writes back is
  block t of the flat form of the layer, computed from the arrays as the region finds them; the blocks tile the result, and
  the array the region leaves is that function whole.
-/
import proofs.«115320_j47656957116956_1_alg».proof.Proof.Gen.KernelIdeal.Frame
import proofs.«115320_j47656957116956_1_alg».proof.Proof.Payload
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The stored block, one entry at a time: the body's one store covers the whole buffer, and its loads read whole blocks. -/
theorem out_apply (x0 : Vec Ideal S512x4096 .f32) (x1 : Vec Ideal S128x4096 .i32) (x2 : Vec Ideal S128x1 .i32)
    (x3 : Vec Ideal S128x1 .f32) (x4 : Vec Ideal S1x128 .f32) (p : Fin 512) (q : Fin 128) :
    out0_5 (F := Ideal) x0 x1 x2 x3 x4 (ix2 p q)
      = (∑ k : Fin 4096, x0 (ix2 p k) * Cert.Dequant.weight (x1 (ix2 q k)) (x2 (ix2 q (0 : Fin 1))) (x3 (ix2 q (0 : Fin 1))))
        + x4 (ix2 (0 : Fin 1) q) := by
  unfold out0_5
  rw [View.canon_unit_zero origin]
  simp only [View.ld_unit_zero (S := S512x4096) origin, View.ld_unit_zero (S := S128x4096) origin,
    View.ld_unit_zero (S := S128x1) origin, View.ld_unit_zero (S := S1x128) origin]
  exact pay_apply x0 x1 x2 x3 x4 p q

/-- The printed index maps over the 512 grid points: the output's block index is (t / 32, t % 32); the input rows move with
    the first, the channels' codes, zero points, scales and biases with the second, and every other block index is 0. -/
theorem idx_facts : ∀ t : Fin cfg0.N,
    win0_5.index t (0 : Fin 2) = t.val / 32 ∧ win0_5.index t (1 : Fin 2) = t.val % 32
    ∧ win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = t.val % 32 ∧ win0_3.index t (1 : Fin 2) = 0
    ∧ win0_4.index t (0 : Fin 2) = 0 ∧ win0_4.index t (1 : Fin 2) = t.val % 32 :=
  (by decide +kernel : ∀ t : Fin grid0.N, _)

/-- WHAT POINT t WRITES BACK is block t of the flat form of the layer, of the arrays as the region finds them. -/
theorem flushed_eq (c : Dev nD) (t : Fin cfg0.N) :
    (dats m 0 c).flushed 5 t = ((cfg0.win 5).blk t).view.read (Elt Ideal)
      (Cert.Dequant.flat (V m c main_v0) (V m c main_arg1) (V m c main_v1) (V m c main_v2) (V m c main_v3)) := by
  show (cfg0.win 5).cut (grid0.coords t) ((dats m 0 c).after 5 t) = _
  rw [after0_5]
  obtain ⟨f0, f1, a0, a1, b0, b1, c0, c1, d0, d1, e0, e1⟩ := idx_facts t
  have hN : cfg0.N = 512 := N_0
  have ht : t.val < 512 := hN ▸ t.isLt
  funext y
  have hp : (y 0).val < 512 := (y 0).isLt
  have hq : (y 1).val < 128 := (y 1).isLt
  -- the entry's place inside the block, and in the array, as literal coordinates
  obtain ⟨p, hpv⟩ : ∃ p : Fin 512, p.val = (y 0).val := ⟨⟨_, hp⟩, rfl⟩
  obtain ⟨q, hqv⟩ : ∃ q : Fin 128, q.val = (y 1).val := ⟨⟨_, hq⟩, rfl⟩
  obtain ⟨R, hRv⟩ : ∃ R : Fin 8192, R.val = t.val / 32 * 512 + (y 0).val := ⟨⟨_, by omega⟩, rfl⟩
  obtain ⟨O, hOv⟩ : ∃ O : Fin 4096, O.val = t.val % 32 * 128 + (y 1).val := ⟨⟨_, by omega⟩, rfl⟩
  have hy : (cfg0.win 5).xinj (grid0.coords t) y = (ix2 p q : S512x128.Idx) := funext fun a => Fin.ext (by
    match a with
    | ⟨0, _⟩ => exact hpv.symm
    | ⟨1, _⟩ => exact hqv.symm)
  have hr : ((cfg0.win 5).blk t).view.emb y = (ix2 R O : S8192x4096.Idx) := funext fun a => Fin.ext (by
    match a with
    | ⟨0, _⟩ => show win0_5.index t (0 : Fin 2) * 512 + 1 * (y 0).val = R.val; omega
    | ⟨1, _⟩ => show win0_5.index t (1 : Fin 2) * 128 + 1 * (y 1).val = O.val; omega)
  show out0_5 (iblk m c 0 t) (iblk m c 1 t) (iblk m c 2 t) (iblk m c 3 t) (iblk m c 4 t) ((cfg0.win 5).xinj (grid0.coords t) y)
    = Cert.Dequant.flat (V m c main_v0) (V m c main_arg1) (V m c main_v1) (V m c main_v2) (V m c main_v3) (((cfg0.win 5).blk t).view.emb y)
  rw [hy, hr]
  refine (out_apply (iblk m c 0 t) (iblk m c 1 t) (iblk m c 2 t) (iblk m c 3 t) (iblk m c 4 t) p q).trans ?_
  -- each loaded block's entry is an entry of its array
  have g0 : ∀ k : Fin 4096, ((cfg0.win 0).blk t).view.emb (ix2 p k : S512x4096.Idx) = (ix2 R k : S8192x4096.Idx) := fun k =>
    funext fun a => Fin.ext (by
      match a with
      | ⟨0, _⟩ => show win0_0.index t (0 : Fin 2) * 512 + 1 * p.val = R.val; omega
      | ⟨1, _⟩ => show win0_0.index t (1 : Fin 2) * 4096 + 1 * k.val = k.val; omega)
  have g1 : ∀ k : Fin 4096, ((cfg0.win 1).blk t).view.emb (ix2 q k : S128x4096.Idx) = (ix2 O k : S4096x4096.Idx) := fun k =>
    funext fun a => Fin.ext (by
      match a with
      | ⟨0, _⟩ => show win0_1.index t (0 : Fin 2) * 128 + 1 * q.val = O.val; omega
      | ⟨1, _⟩ => show win0_1.index t (1 : Fin 2) * 4096 + 1 * k.val = k.val; omega)
  have g2 : ((cfg0.win 2).blk t).view.emb (ix2 q (0 : Fin 1) : S128x1.Idx) = (ix2 O (0 : Fin 1) : S4096x1.Idx) :=
    funext fun a => Fin.ext (by
      match a with
      | ⟨0, _⟩ => show win0_2.index t (0 : Fin 2) * 128 + 1 * q.val = O.val; omega
      | ⟨1, _⟩ => show win0_2.index t (1 : Fin 2) * 1 + 1 * 0 = 0; omega)
  have g3 : ((cfg0.win 3).blk t).view.emb (ix2 q (0 : Fin 1) : S128x1.Idx) = (ix2 O (0 : Fin 1) : S4096x1.Idx) :=
    funext fun a => Fin.ext (by
      match a with
      | ⟨0, _⟩ => show win0_3.index t (0 : Fin 2) * 128 + 1 * q.val = O.val; omega
      | ⟨1, _⟩ => show win0_3.index t (1 : Fin 2) * 1 + 1 * 0 = 0; omega)
  have g4 : ((cfg0.win 4).blk t).view.emb (ix2 (0 : Fin 1) q : S1x128.Idx) = (ix2 (0 : Fin 1) O : S1x4096.Idx) :=
    funext fun a => Fin.ext (by
      match a with
      | ⟨0, _⟩ => show win0_4.index t (0 : Fin 2) * 1 + 1 * 0 = 0; omega
      | ⟨1, _⟩ => show win0_4.index t (1 : Fin 2) * 128 + 1 * q.val = O.val; omega)
  have key : ∀ (X : S8192x4096.Idx → EReal) (Q : S4096x4096.Idx → BitVec 32) (Z : S4096x1.Idx → BitVec 32)
      (S : S4096x1.Idx → EReal) (B : S1x4096.Idx → EReal),
      (∑ k : Fin 4096, X (((cfg0.win 0).blk t).view.emb (ix2 p k : S512x4096.Idx))
          * Cert.Dequant.weight (Q (((cfg0.win 1).blk t).view.emb (ix2 q k : S128x4096.Idx)))
              (Z (((cfg0.win 2).blk t).view.emb (ix2 q (0 : Fin 1) : S128x1.Idx)))
              (S (((cfg0.win 3).blk t).view.emb (ix2 q (0 : Fin 1) : S128x1.Idx))))
        + B (((cfg0.win 4).blk t).view.emb (ix2 (0 : Fin 1) q : S1x128.Idx))
      = Cert.Dequant.flat X Q Z S B (ix2 R O : S8192x4096.Idx) := by
    intro X Q Z S B
    show _ = (∑ k : Fin 4096, X (ix2 R k : S8192x4096.Idx)
          * Cert.Dequant.weight (Q (ix2 O k : S4096x4096.Idx)) (Z (ix2 O (0 : Fin 1) : S4096x1.Idx)) (S (ix2 O (0 : Fin 1) : S4096x1.Idx)))
        + B (ix2 (0 : Fin 1) O : S1x4096.Idx)
    rw [g2, g3, g4]
    refine congrArg (· + _) (Finset.sum_congr rfl fun k _ => ?_)
    rw [g0 k, g1 k]
  exact key (V m c main_v0) (V m c main_arg1) (V m c main_v1) (V m c main_v2) (V m c main_v3)

/-- An index of the result is in point t's block iff each coordinate lies in the block's range on its axis. -/
theorem mem_blk (t : Fin cfg0.N) (i : S8192x4096.Idx) :
    i ∈ ((cfg0.win 5).blk t).view.set ↔ ∀ a : Fin 2, win0_5.index t a * S512x128.size a ≤ (i a).val
      ∧ (i a).val < win0_5.index t a * S512x128.size a + S512x128.size a := by
  show i ∈ ((View.whole main_v4).slice (win0_5.rect t)).set ↔ _
  rw [View.set_slice_whole, Rect.mem_set_unit]
  exact Iff.rfl

/-- The blocks tile the result: entry (r, o) is in the block of point (r / 512)·32 + o / 128. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 512 := N_0
  obtain ⟨t, htv⟩ : ∃ t : Fin cfg0.N, t.val = (i 0).val / 512 * 32 + (i 1).val / 128 := ⟨⟨_, by rw [hN]; omega⟩, rfl⟩
  obtain ⟨f0, f1, -⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 128 ≤ (i 1).val ∧ (i 1).val < win0_5.index t (1 : Fin 2) * 128 + 128
    omega

/-- THE ARRAY the region leaves: the flat form of the layer, whole. -/
theorem final (c : Dev nD) : (dats m 0 c).arrAt 5 cfg0.N
    = Cert.Dequant.flat (V m c main_v0) (V m c main_arg1) (V m c main_v1) (V m c main_v2) (V m c main_v3) :=
  (dats m 0 c).arrAt_eq_of_cover 5 _ (fun t _ => flushed_eq m c t) cover

end Cert.KernelIdeal.BlockValue

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.FlatIsLin.lean ====
/-
  The flat form of the layer, its 8192 rows regrouped as 4 members of 2048 rows, is the layer over the batch: row
  b·2048 + s of the flat input is row (b, s) of the batch, a per-channel vector stood up as a column or laid as a row keeps
  its entries, and the sum over the features is term by term the same.
-/
import proofs.«115320_j47656957116956_1_alg».proof.Proof.Spec
import proofs.«115320_j47656957116956_1_alg».proof.Proof.LibLayout

noncomputable section

namespace Cert.Dequant

open Idealize.ShloMosaic Idealize.ShloMosaic.ValueIdx

theorem shapeCast_flat (x : (⟨3, ![4, 2048, 4096]⟩ : Shape).Idx → EReal) (q : (⟨2, ![4096, 4096]⟩ : Shape).Idx → BitVec 32)
    (z : (⟨1, ![4096]⟩ : Shape).Idx → BitVec 32) (s b : (⟨1, ![4096]⟩ : Shape).Idx → EReal)
    (hx : (⟨3, ![4, 2048, 4096]⟩ : Shape).ShapeCasts ⟨2, ![8192, 4096]⟩)
    (hc : (⟨1, ![4096]⟩ : Shape).ShapeCasts ⟨2, ![4096, 1]⟩) (hr : (⟨1, ![4096]⟩ : Shape).ShapeCasts ⟨2, ![1, 4096]⟩)
    (ho : (⟨2, ![8192, 4096]⟩ : Shape).ShapeCasts ⟨3, ![4, 2048, 4096]⟩) :
    shapeCast ⟨3, ![4, 2048, 4096]⟩
      (flat (shapeCast ⟨2, ![8192, 4096]⟩ x hx) q (shapeCast ⟨2, ![4096, 1]⟩ z hc) (shapeCast ⟨2, ![4096, 1]⟩ s hc)
        (shapeCast ⟨2, ![1, 4096]⟩ b hr)) ho
      = lin x q z s b := by
  funext j
  obtain ⟨p, n, o, rfl⟩ : ∃ (p : Fin 4) (n : Fin 2048) (o : Fin 4096), j = ix3 p n o := ⟨j 0, j 1, j 2, eq_ix3 j⟩
  have hlt : p.val * 2048 + n.val < 8192 := by have := p.isLt; have := n.isLt; omega
  rw [Cert.LibLayout.shapeCast_mc_abc_apply _ ho ⟨p.val * 2048 + n.val, hlt⟩ p n o rfl]
  show (∑ k : Fin 4096, shapeCast ⟨2, ![8192, 4096]⟩ x hx (ix2 ⟨p.val * 2048 + n.val, hlt⟩ k)
      * weight (q (ix2 o k)) (shapeCast ⟨2, ![4096, 1]⟩ z hc (ix2 o (0 : Fin 1))) (shapeCast ⟨2, ![4096, 1]⟩ s hc (ix2 o (0 : Fin 1))))
      + shapeCast ⟨2, ![1, 4096]⟩ b hr (ix2 (0 : Fin 1) o)
    = (∑ k : Fin 4096, x (ix3 p n k) * weight (q (ix2 o k)) (z (ix1 o)) (s (ix1 o))) + b (ix1 o)
  rw [Cert.LibLayout.shapeCast_a_a1_apply z hc o 0, Cert.LibLayout.shapeCast_a_a1_apply s hc o 0, shapeCast_a_1a_apply b hr 0 o]
  refine congrArg (· + b (ix1 o)) (Finset.sum_congr rfl fun k _ => ?_)
  rw [Cert.LibLayout.shapeCast_abc_mc_apply x hx ⟨p.val * 2048 + n.val, hlt⟩ p n k rfl]

end Cert.Dequant

end
-- ==== Proof.KernelRun.lean ====
/-
  The whole program around the region.

  Before the region the input's batch [4, 2048] is flattened to 8192 rows, the zero points and the scales are stood up as
  columns and the bias is laid as a row; after it the flat result is regrouped as [4, 2048] again.  The region leaves the
  flat form of the layer of those arrays, so the program's result is the layer over the batch as given, of its arguments.
-/
import proofs.«115320_j47656957116956_1_alg».proof.Proof.Gen.KernelIdeal.Frame
import proofs.«115320_j47656957116956_1_alg».proof.Proof.Blocks
import proofs.«115320_j47656957116956_1_alg».proof.Proof.FlatIsLin
import Idealize.ShloMosaic.Lib.StableHlo.Run

noncomputable section

namespace Cert.KernelIdeal.BlockValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds the input flattened to 8192 rows. -/
theorem V_main_v0 (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The zero points as a column. -/
theorem V_main_v1 (c : Dev nD) : (V m c main_v1 : S4096x1.Idx → BitVec 32)
    = shapeCast S4096x1 (m ((c : Thread nD τ).loc main_arg2)) shapeCasts_S4096_S4096x1 := by
  show StableHlo.after hostOps0 (fun b => m (c, b)) (Proc.devRef .tc main_v1) = _
  after_results
  rfl

/-- The scales as a column. -/
theorem V_main_v2 (c : Dev nD) : (V m c main_v2 : S4096x1.Idx → EReal)
    = shapeCast S4096x1 (m ((c : Thread nD τ).loc main_arg3)) shapeCasts_S4096_S4096x1 := by
  show StableHlo.after hostOps0 (fun b => m (c, b)) (Proc.devRef .tc main_v2) = _
  after_results
  rfl

/-- The bias as a row. -/
theorem V_main_v3 (c : Dev nD) : (V m c main_v3 : S1x4096.Idx → EReal)
    = shapeCast S1x4096 (m ((c : Thread nD τ).loc main_arg4)) shapeCasts_S4096_S1x4096 := by
  show StableHlo.after hostOps0 (fun b => m (c, b)) (Proc.devRef .tc main_v3) = _
  after_results
  rfl

/-- The program's result: the region's array regrouped, which is the layer over the batch of the arguments. -/
theorem result_eq (c : Dev nD) : Pipeline.afterTail₀ cfgs (dats m) 0 (V0 m) [hostOps1] c main_v5
    = Cert.Dequant.lin (m ((c : Thread nD τ).loc main_arg0)) (m ((c : Thread nD τ).loc main_arg1))
        (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N) (Proc.devRef .tc main_v4)
      = Cert.Dequant.flat (shapeCast S8192x4096 (m ((c : Thread nD τ).loc main_arg0)) shapeCasts_S4x2048x4096_S8192x4096)
          (m ((c : Thread nD τ).loc main_arg1))
          (shapeCast S4096x1 (m ((c : Thread nD τ).loc main_arg2)) shapeCasts_S4096_S4096x1)
          (shapeCast S4096x1 (m ((c : Thread nD τ).loc main_arg3)) shapeCasts_S4096_S4096x1)
          (shapeCast S1x4096 (m ((c : Thread nD τ).loc main_arg4)) shapeCasts_S4096_S1x4096) := by
    refine ((Pipeline.withArrays_arr spec0 launch0.win.arr_inj c _ _ 5).trans (final m c)).trans ?_
    rw [V_main_v0, V_main_arg1, V_main_v1, V_main_v2, V_main_v3]
  unfold Pipeline.afterTail₀
  show StableHlo.after hostOps1 _ (Proc.devRef .tc main_v5) = _
  after_results
  refine (congrArg (fun X : S8192x4096.Idx → EReal => shapeCast S4x2048x4096 X shapeCasts_S8192x4096_S4x2048x4096) e).trans ?_
  exact Cert.Dequant.shapeCast_flat _ _ _ _ _ _ _ _ _

/-- Every weakly fair execution of the program terminates with its result at the layer over the batch of its arguments,
    the arguments unchanged. -/
theorem run : θ_run defs (onTc (τ := τ) (main (F := Ideal))) ⟨m, fun _ => 0, ρ⟩ fun r => ∀ c : Dev nD,
      r.2.mem ((c.tc : Thread nD τ).loc main_v5)
        = Cert.Dequant.lin (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.BlockValue

end
-- ==== Proof.lean ====
/-
  A linear layer whose weight is stored as integer codes, computed block by block, against the same layer computed whole.

  Both programs form the weight of output channel o against feature k as the code q(o, k) less the channel's zero point —
  the 32-bit subtraction read as a signed integer — times the channel's scale, and send each row x of the batch to
  Σ_k x(k) · w(o, k) + bias(o).  The blocked program flattens the batch [4, 2048] to 8192 rows, works on 512 rows and 128
  channels at a grid point, contracting all 4096 features at once into a zero accumulator, and regroups the flat result; the
  whole one contracts the batch as given.  On the extended reals a change of float format is the identity and a sum is a sum
  whatever its grouping, so the two results are the same function of the arguments, entry by entry; the law that joins them
  is only that row b·2048 + s of the flat input is row (b, s) of the batch, with  0 + Σ = Σ  for the accumulator.  No
  finiteness is used: the precondition is never opened.
-/
import proofs.«115320_j47656957116956_1_alg».proof.Defs
import proofs.«115320_j47656957116956_1_alg».proof.Proof.Gen.Kernel
import proofs.«115320_j47656957116956_1_alg».proof.Proof.Gen.Kernel.Frame
import proofs.«115320_j47656957116956_1_alg».proof.Proof.Gen.KernelIdeal
import proofs.«115320_j47656957116956_1_alg».proof.Proof.Gen.KernelIdeal.Frame
import proofs.«115320_j47656957116956_1_alg».proof.Proof.Gen.ReferenceIdeal
import proofs.«115320_j47656957116956_1_alg».proof.Proof.Gen.Pre_finite_inputs
import proofs.«115320_j47656957116956_1_alg».proof.Proof.Gen.ReferenceIdeal.Run
import proofs.«115320_j47656957116956_1_alg».proof.Proof.Gen.ReferenceIdeal.Read
import proofs.«115320_j47656957116956_1_alg».proof.Proof.RefIsSpec
import proofs.«115320_j47656957116956_1_alg».proof.Proof.KernelRun

noncomputable section

namespace Cert.Proof

open Idealize.ShloMosaic Idealize.ShloMosaic.TcCoe Idealize.SL.Sem

/-- The three programs run, fault nothing, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the layer over the batch of those arguments. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
